-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S64 .f32) (main_arg3 : IVec S1600000 32) (main_arg4 : IVec S1600000 32) (main_arg5 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The graph-convolution layer as functions of its arrays, entry by entry, on the extended reals.

  `support x w` is the dense product of the node features with the weights: its entry at row `r`, column `c` is the
  sum over `k` of `x (r, k) * w (k, c)`, the 128 terms in any order (addition of extended reals is commutative and
  associative, so no term need be finite).  `withBias a b` adds the bias row to every row of `a`: its entry at
  `(r, c)` is `a (r, c) + b c`.  Between the two sits the sparse aggregation (gather the source rows, scale each by
  its edge value, add into the destination rows); both programs compute it by the same host operations, so it is
  carried as one function of the support and never opened.
-/
import Idealize.ShloMosaic.PureOps.Ideal
import Idealize.ShloMosaic.Lib.ValueIdx

noncomputable section

open scoped BigOperators

namespace Cert.GraphConv

open Idealize.ShloMosaic Idealize.ShloMosaic.ValueIdx

/-- The node features, 100000 nodes of 128 features. -/
abbrev Nodes : Shape := ⟨2, ![100000, 128]⟩
/-- The weights, 128 input features to 64 output features. -/
abbrev Weights : Shape := ⟨2, ![128, 64]⟩
/-- The support, the aggregate and the output: 100000 nodes of 64 features. -/
abbrev Feat : Shape := ⟨2, ![100000, 64]⟩
/-- The bias, one number per output feature. -/
abbrev BiasRow : Shape := ⟨1, ![64]⟩

/-- The node-feature entry that term `k` of output entry `i` reads: row of `i`, column `k`. -/
def atRow (i : Feat.Idx) (k : Fin 128) : Nodes.Idx := ix2 (⟨(i 0).val, (i 0).isLt⟩ : Fin 100000) k
/-- The weight entry that term `k` of output entry `i` reads: row `k`, column of `i`. -/
def atCol (i : Feat.Idx) (k : Fin 128) : Weights.Idx := ix2 k (⟨(i 1).val, (i 1).isLt⟩ : Fin 64)
/-- The bias entry that output entry `i` reads: the column of `i`. -/
def colOf (i : Feat.Idx) : BiasRow.Idx := ix1 (⟨(i 1).val, (i 1).isLt⟩ : Fin 64)

/-- The dense product `x · w`, entry by entry. -/
def support (x : Nodes.Idx → EReal) (w : Weights.Idx → EReal) : Feat.Idx → EReal :=
  fun i => ∑ k : Fin 128, x (atRow i k) * w (atCol i k)

/-- The bias row added to every row. -/
def withBias (a : Feat.Idx → EReal) (b : BiasRow.Idx → EReal) : Feat.Idx → EReal :=
  fun i => a i + b (colOf i)

end Cert.GraphConv

end
-- ==== Proof.Support.lean ====
/-
  The first pallas_call: a dense product, 5000 rows at a time.

  Grid point `t` (of 20) loads rows `5000 t … 5000 t + 4999` of the node features and the whole weight matrix, multiplies
  them into a zero accumulator, and writes the 5000 × 64 result back as rows `5000 t …` of the output.  At the ideal
  instance the two narrowings to bf16 are the identity and the product into a zero accumulator is the plain sum over the
  128 contraction positions, so the entry the point writes at block position `(p, q)` is
  `Σ_k x (5000 t + p, k) · w (k, q)`: block `t` of `support x w`.  The 20 blocks tile the 100000 rows (row `r` lies in
  block `r / 5000`), so after the region the output array IS `support x w`, whatever it held before.
-/
import proofs.«173636_j4776003633738_2_alg».proof.Proof.Gen.KernelIdeal.Frame
import proofs.«173636_j4776003633738_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.SupportValue

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

/-! ## One block's product, entry by entry -/

/-- Inside a block: the feature entry term `k` of block entry `j` reads (row of `j`, column `k`). -/
def blkRow (j : S5000x64.Idx) (k : Fin 128) : S5000x128.Idx := fun a => match a with
  | ⟨0, _⟩ => ⟨(j 0).val, (j 0).isLt⟩
  | ⟨1, _⟩ => ⟨k.val, k.isLt⟩
/-- The weight entry term `k` of block entry `j` reads (row `k`, column of `j`). -/
def blkCol (j : S5000x64.Idx) (k : Fin 128) : S128x64.Idx := fun a => match a with
  | ⟨0, _⟩ => ⟨k.val, k.isLt⟩
  | ⟨1, _⟩ => ⟨(j 1).val, (j 1).isLt⟩

/-- The product's left operand index: the output's row on the free axis, -/
theorem lhs_free (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- the contraction position on the contracted one. -/
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand index: the contraction position on the contracted axis, -/
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- the output's column on the free one. -/
theorem rhs_free (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at block entry `j`: the sum over the 128 contraction positions of the loaded feature entry
    times the loaded weight entry.  The roundings to bf16 are the identity on extended reals and the accumulator is zero. -/
theorem payload_apply (x0 : FVec Ideal S5000x128 .f32) (x1 : FVec Ideal S128x64 .f32) (j : S5000x64.Idx) :
    k0_pay1 (F := Ideal) x0 x1 j = ∑ k : Fin 128, x0 (blkRow j k) * x1 (blkCol j k) := by
  unfold k0_pay1
  refine (Ideal.matmul_constant_zero_apply dot_S5000x128_S128x64_S5000x64_1_0_0_1_n_n none (truncf .bf16 x0 bitsLt_bf16_f32) (truncf .bf16 x1 bitsLt_bf16_f32) j).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j ((contrEquiv1 dot_S5000x128_S128x64_S5000x64_1_0_0_1_n_n 128 rfl rfl).symm k) = blkRow j k := funext fun a => Fin.ext (by
    match a with
    | ⟨0, _⟩ => exact lhs_free _ _
    | ⟨1, _⟩ => exact (lhs_contr _ _).trans hk)
  have er : dot_S5000x128_S128x64_S5000x64_1_0_0_1_n_n.rhsIdx j ((contrEquiv1 dot_S5000x128_S128x64_S5000x64_1_0_0_1_n_n 128 rfl rfl).symm k) = blkCol j k := funext fun a => Fin.ext (by
    match a with
    | ⟨0, _⟩ => exact (rhs_contr _ _).trans hk
    | ⟨1, _⟩ => exact rhs_free _ _)
  exact congrArg₂ (· * ·) (congrArg x0 el) (congrArg x1 er)

/-- The same entry against the whole arrays: if the loaded blocks read the arrays `X` and `Wt` where output entry `i`
    reads them, the stored entry is `support X Wt i`. -/
theorem block_entry (X : Nodes.Idx → EReal) (Wt : Weights.Idx → EReal) (x0 : FVec Ideal S5000x128 .f32) (x1 : FVec Ideal S128x64 .f32)
    (i : Feat.Idx) (j : S5000x64.Idx) (h0 : ∀ k, x0 (blkRow j k) = X (atRow i k)) (h1 : ∀ k, x1 (blkCol j k) = Wt (atCol i k)) :
    k0_pay1 (F := Ideal) x0 x1 j = support X Wt i := by
  refine (payload_apply x0 x1 j).trans ?_
  unfold support
  exact Finset.sum_congr rfl fun k _ => congrArg₂ (· * ·) (h0 k) (h1 k)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 20 grid points: the feature window moves with the output window down the rows, the
    weight window stays at the origin, and no window moves along the columns. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some grid point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- WHAT POINT `t` WRITES BACK is block `t` of the dense product of the arrays the region finds. -/
theorem flushed_eq (c : Dev nD) (t : Fin cfg0.N) :
    (dat0 V c).flushed 2 t = ((cfg0.win 2).blk t).view.read (Elt Ideal) (support (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4⟩ := index_maps t
  refine funext fun (j : S5000x64.Idx) => ?_
  show k0_pay1 (iblk0 V c 0 t) (iblk0 V c 1 t) j = support (V c main_arg0) (V c main_arg1) (((cfg0.win 2).blk t).view.emb j)
  refine block_entry (V c main_arg0) (V c main_arg1) (iblk0 V c 0 t) (iblk0 V c 1 t) (((cfg0.win 2).blk t).view.emb j) j (fun k => ?_) (fun k => ?_)
  · show V c main_arg0 (((cfg0.win 0).blk t).view.emb (blkRow j k)) = V c main_arg0 (atRow (((cfg0.win 2).blk t).view.emb j) k)
    have h0 : ((cfg0.win 0).blk t).view.emb (blkRow j k) = atRow (((cfg0.win 2).blk t).view.emb j) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 128 + 1 * k.val = k.val; omega
    rw [h0]
  · show V c main_arg1 (((cfg0.win 1).blk t).view.emb (blkCol j k)) = V c main_arg1 (atCol (((cfg0.win 2).blk t).view.emb j) k)
    have h1 : ((cfg0.win 1).blk t).view.emb (blkCol j k) = atCol (((cfg0.win 2).blk t).view.emb j) k := by
      funext a; apply Fin.ext
      match a with
      | ⟨0, _⟩ => show win0_1.index t (0 : Fin 2) * 128 + 1 * k.val = k.val; omega
      | ⟨1, _⟩ => show win0_1.index t (1 : Fin 2) * 64 + 1 * (j 1).val = win0_2.index t (1 : Fin 2) * 64 + 1 * (j 1).val; omega
    rw [h1]

/-- An entry of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The blocks tile the array: row `r` lies in the block of point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the region is the dense product of the feature and weight arrays the region found. -/
theorem final (c : Dev nD) : (dat0 V c).arrAt 2 cfg0.N = support (V c main_arg0) (V c main_arg1) :=
  (dat0 V c).arrAt_eq_of_cover 2 _ (fun t _ => flushed_eq V c t) cover

end Cert.KernelIdeal.SupportValue

end
-- ==== Proof.BiasAdd.lean ====
/-
  The second pallas_call: the bias row added to every row, 10000 rows at a time.

  Grid point `t` (of 10) loads rows `10000 t … 10000 t + 9999` of the aggregate and the whole 64-entry bias, lays the
  bias out as one row, repeats that row down the block and adds.  The entry it writes at block position `(p, q)` is
  `a (10000 t + p, q) + b q`: block `t` of `withBias a b`.  The 10 blocks tile the 100000 rows (row `r` lies in block
  `r / 10000`), so after the region the output array IS `withBias a b` of the two arrays the region found.
-/
import proofs.«173636_j4776003633738_2_alg».proof.Proof.Gen.KernelIdeal.Frame
import proofs.«173636_j4776003633738_2_alg».proof.Proof.Spec
import Idealize.ShloMosaic.Lib.Pipeline.Value
import Idealize.ShloMosaic.Lib.ValueIdx
import Idealize.ShloMosaic.Lib.ValueLayout

noncomputable section

namespace Cert.KernelIdeal.BiasValue

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

/-! ## One block's sum, entry by entry -/

/-- What the body stores, at block entry `(p, q)`: the loaded aggregate entry plus bias entry `q`.  The casts of the
    aggregate block and of the one-row bias to their own shapes are the identity; the bias laid out as a `1 × 64` row
    reads entry `q` at `(0, q)`, and the row repeated down the block reads it at every `(p, q)`. -/
theorem payload_apply (v0 : FVec Ideal S64 .f32) (v4 : FVec Ideal S10000x64 .f32) (p : Fin 10000) (q : Fin 64) :
    k1_pay1 (F := Ideal) v0 v4 (ix2 p q) = v4 (ix2 p q) + v0 (ix1 q) := by
  unfold k1_pay1
  show addf (shapeCast S10000x64 v4 shapeCasts_S10000x64_S10000x64)
      (broadcastTo S10000x64 (shapeCast S1x64 (shapeCast S1x64 v0 shapeCasts_S64_S1x64) shapeCasts_S1x64_S1x64) broadcasts_S1x64_S10000x64) (ix2 p q) = _
  refine (addf_apply _ _ _).trans ?_
  rw [shapeCast_self v4]
  refine congrArg (v4 (ix2 p q) + ·) ?_
  refine (broadcastTo_1b_ab_apply _ broadcasts_S1x64_S10000x64 p q).trans ?_
  rw [shapeCast_self (shapeCast S1x64 v0 shapeCasts_S64_S1x64)]
  exact shapeCast_a_1a_apply v0 shapeCasts_S64_S1x64 0 q

/-- The same entry against the whole arrays: if the loaded blocks read the arrays `A` and `B` where output entry `i` reads
    them, the stored entry is `withBias A B i`. -/
theorem block_entry (A : Feat.Idx → EReal) (B : BiasRow.Idx → EReal) (v0 : FVec Ideal S64 .f32) (v4 : FVec Ideal S10000x64 .f32)
    (i : Feat.Idx) (p : Fin 10000) (q : Fin 64) (h0 : v4 (ix2 p q) = A i) (h1 : v0 (ix1 q) = B (colOf i)) :
    k1_pay1 (F := Ideal) v0 v4 (ix2 p q) = withBias A B i := by
  refine (payload_apply v0 v4 p q).trans ?_
  unfold withBias
  exact congrArg₂ (· + ·) h0 h1

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- The printed index maps over the 10 grid points: the aggregate window moves with the output window, the bias window
    stays at the origin, and no window moves along the columns. -/
theorem index_maps : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0 :=
  (by decide +kernel : ∀ t : Fin grid1.N, _)

/-- Every block of rows is some grid point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- WHAT POINT `t` WRITES BACK is block `t` of the aggregate-plus-bias of the arrays the region finds. -/
theorem flushed_eq (c : Dev nD) (t : Fin cfg1.N) :
    (dat1 V c).flushed 2 t = ((cfg1.win 2).blk t).view.read (Elt Ideal) (withBias (V c main_v13) (V c main_arg2)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64) zero_offset]
  obtain ⟨e0, e1, e2, e3⟩ := index_maps t
  refine funext fun (j : S10000x64.Idx) => ?_
  obtain ⟨p, q, rfl⟩ : ∃ (p : Fin 10000) (q : Fin 64), j = ix2 p q := ⟨j 0, j 1, eq_ix2 j⟩
  show k1_pay1 (iblk1 V c 1 t) (iblk1 V c 0 t) (ix2 p q) = withBias (V c main_v13) (V c main_arg2) (((cfg1.win 2).blk t).view.emb (ix2 p q))
  refine block_entry (V c main_v13) (V c main_arg2) (iblk1 V c 1 t) (iblk1 V c 0 t) (((cfg1.win 2).blk t).view.emb (ix2 p q)) p q ?_ ?_
  · show V c main_v13 (((cfg1.win 0).blk t).view.emb (ix2 p q)) = V c main_v13 (((cfg1.win 2).blk t).view.emb (ix2 p q))
    have h0 : ((cfg1.win 0).blk t).view.emb (ix2 p q) = ((cfg1.win 2).blk t).view.emb (ix2 p q) := by
      funext a; apply Fin.ext
      match a with
      | ⟨0, _⟩ => show win1_0.index t (0 : Fin 2) * 10000 + 1 * p.val = win1_2.index t (0 : Fin 2) * 10000 + 1 * p.val; omega
      | ⟨1, _⟩ => show win1_0.index t (1 : Fin 2) * 64 + 1 * q.val = win1_2.index t (1 : Fin 2) * 64 + 1 * q.val; omega
    rw [h0]
  · show V c main_arg2 (((cfg1.win 1).blk t).view.emb (ix1 q)) = V c main_arg2 (colOf (((cfg1.win 2).blk t).view.emb (ix2 p q)))
    have h1 : ((cfg1.win 1).blk t).view.emb (ix1 q) = colOf (((cfg1.win 2).blk t).view.emb (ix2 p q)) := by
      funext a; apply Fin.ext
      match a with
      | ⟨0, _⟩ => show win1_1.index t (0 : Fin 1) * 64 + 1 * q.val = win1_2.index t (1 : Fin 2) * 64 + 1 * q.val; omega
    rw [h1]

/-- An entry of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v14).slice (win1_2.rect t)).set ↔ _
  rw [View.set_slice_whole, Rect.mem_set_unit]
  exact Iff.rfl

/-- The blocks tile the array: row `r` lies in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the region is the aggregate the region found plus the bias it found, row by row. -/
theorem final (c : Dev nD) : (dat1 V c).arrAt 2 cfg1.N = withBias (V c main_v13) (V c main_arg2) :=
  (dat1 V c).arrAt_eq_of_cover 2 _ (fun t _ => flushed_eq V c t) cover

end Cert.KernelIdeal.BiasValue

end
-- ==== Proof.HostChain.lean ====
/-
  Between the two pallas_calls: the sparse aggregation, on the host.

  Sixteen host operations turn the support into the aggregate: a negative source index is wrapped by the node count,
  the source rows are gathered, each is scaled by its edge value, and the scaled rows are added into a zero array at
  the destination rows.  The reference applies the very same operations to its own support, so the chain is named as
  ONE function `aggregate` of the support and the three edge arrays and is never opened: all that is read off the
  host stretch is that the buffer it leaves for the second pallas_call holds `aggregate` of the buffers it found, and
  that it leaves the bias buffer alone.
-/
import proofs.«173636_j4776003633738_2_alg».proof.Proof.Gen.KernelIdeal.Frame
import proofs.«173636_j4776003633738_2_alg».proof.Proof.Spec
import Idealize.ShloMosaic.Lib.StableHlo.Run

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

/-- The aggregation as one function of the support `sup`, the edge sources `src`, destinations `dst` and values `vals`:
    exactly the host operations' own composition (a negative source wrapped by the node count; the rows gathered there;
    each scaled by its edge value; the scaled rows scatter-added into zeros at the destinations).  Nothing here says
    more about it than that, and nothing needs to: both programs apply it. -/
def aggregate (sup : (⟨S100000x64, .f32⟩ : BufTy).Contents (Elt F)) (src dst : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 sup
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- The layer's output as one function of the six argument arrays: the dense product, aggregated over the edges, plus
    the bias row. -/
def layer (x : Cert.GraphConv.Nodes.Idx → EReal) (w : Cert.GraphConv.Weights.Idx → EReal) (b : Cert.GraphConv.BiasRow.Idx → EReal)
    (src dst : (⟨S1600000, .i32⟩ : BufTy).Contents (Elt Ideal)) (vals : (⟨S1600000, .f32⟩ : BufTy).Contents (Elt Ideal)) :
    Cert.GraphConv.Feat.Idx → EReal :=
  Cert.GraphConv.withBias (aggregate (F := Ideal) (Cert.GraphConv.support x w) src dst vals) b

/-- From ANY buffer contents `W`, the host stretch leaves in the aggregate's buffer `aggregate` of what `W` holds in the
    support's buffer and the three edge arguments. -/
theorem after_aggregate (W : Valuation τ sig (Elt F)) :
    StableHlo.after hostOps1 W (Proc.devRef .tc main_v13)
      = aggregate (W (Proc.devRef .tc main_v0)) (W (Proc.devRef .tc main_arg3)) (W (Proc.devRef .tc main_arg4)) (W (Proc.devRef .tc main_arg5)) := by
  unfold hostOps1
  after_results <;> rfl

/-- The host stretch does not write the bias. -/
theorem after_bias (W : Valuation τ sig (Elt F)) :
    StableHlo.after hostOps1 W (Proc.devRef .tc main_arg2) = W (Proc.devRef .tc main_arg2) := by
  unfold hostOps1
  after_results <;> rfl

end Cert.KernelIdeal.HostChain

end
-- ==== Proof.KernelValue.lean ====
/-
  The kernel's whole run, read as one function of its arguments.

  The run ends with the result buffer at what the second pallas_call's write-backs leave.  That array is the
  aggregate-plus-bias of the two arrays the second region found (BiasAdd); the bias it found is the argument, untouched
  by the host stretch and by the first region; the aggregate it found is `aggregate` of the support the first region
  left and of the three edge arguments (HostChain), all untouched by the first region; and the support the first region
  left is the dense product of the feature and weight arguments (Support).  So the result is
  `withBias (aggregate (support x w) src dst vals) b`.
-/
import proofs.«173636_j4776003633738_2_alg».proof.Proof.KernelRun
import proofs.«173636_j4776003633738_2_alg».proof.Proof.Support
import proofs.«173636_j4776003633738_2_alg».proof.Proof.BiasAdd
import proofs.«173636_j4776003633738_2_alg».proof.Proof.HostChain

noncomputable section

namespace Cert.KernelIdeal.KernelValue

open Cert.KernelIdeal Cert.KernelIdeal.Gen Cert.GraphConv Cert.KernelIdeal.HostChain
open Idealize.ShloMosaic Idealize.ShloMosaic.TcCoe Idealize.SL.Sem

variable (m : (ℓ : Loc nD τ sig) → Buf (Elt Ideal) ℓ) (ρ : Dev nD → PrngReg)

/-- The first region leaves the dense product of the feature and weight arguments in the support's buffer. -/
theorem support_left (c : Dev nD) :
    (W1 m ρ c (Proc.devRef .tc main_v0) : Feat.Idx → EReal)
      = support (m ((c : Thread nD τ).loc main_arg0)) (m ((c : Thread nD τ).loc main_arg1)) :=
  (W1_arr m ρ c 2).trans (SupportValue.final (V0 m ρ) c)

/-- The second region finds `aggregate` of that support and of the edge arguments in the aggregate's buffer, -/
theorem aggregate_found (c : Dev nD) :
    (V2 m ρ c main_v13 : Feat.Idx → EReal)
      = aggregate (F := Ideal) (support (m ((c : Thread nD τ).loc main_arg0)) (m ((c : Thread nD τ).loc main_arg1)))
          (m ((c : Thread nD τ).loc main_arg3)) (m ((c : Thread nD τ).loc main_arg4)) (m ((c : Thread nD τ).loc main_arg5)) := by
  refine (after_aggregate (W1 m ρ c)).trans ?_
  rw [support_left m ρ c]
  have h3 : W1 m ρ c (Proc.devRef .tc main_arg3) = m ((c : Thread nD τ).loc main_arg3) := W1_of_ne m ρ c main_arg3 (by decide)
  have h4 : W1 m ρ c (Proc.devRef .tc main_arg4) = m ((c : Thread nD τ).loc main_arg4) := W1_of_ne m ρ c main_arg4 (by decide)
  have h5 : W1 m ρ c (Proc.devRef .tc main_arg5) = m ((c : Thread nD τ).loc main_arg5) := W1_of_ne m ρ c main_arg5 (by decide)
  rw [h3, h4, h5]

/-- and the bias argument in the bias's buffer. -/
theorem bias_found (c : Dev nD) :
    (V2 m ρ c main_arg2 : BiasRow.Idx → EReal) = m ((c : Thread nD τ).loc main_arg2) :=
  (after_bias (W1 m ρ c)).trans (W1_of_ne m ρ c main_arg2 (by decide))

/-- The result buffer at the end of the run holds the layer of the arguments. -/
theorem result_eq (c : Dev nD) :
    (W3 m ρ c (Proc.devRef .tc main_v14) : Feat.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  calc (W3 m ρ c (Proc.devRef .tc main_v14) : Feat.Idx → EReal)
    _ = (dat1 (V2 m ρ) c).arrAt 2 cfg1.N := W3_arr m ρ c 2
    _ = withBias (V2 m ρ c main_v13) (V2 m ρ c main_arg2) := BiasValue.final (V2 m ρ) c
    _ = _ := congrArg₂ withBias (aggregate_found m ρ c) (bias_found m ρ c)

/-- THE KERNEL'S RUN, read: every weakly fair execution terminates, nothing faulting, with the result at the layer of
    the arguments and the arguments as launched. -/
theorem run : θ_run defs (onTc (τ := τ) (main (F := Ideal))) ⟨m, fun _ => 0, ρ⟩ (fun r => ∀ c : Dev nD,
      r.2.mem ((c.tc : Thread nD τ).loc main_v14)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (GenP.run_main m ρ)

end Cert.KernelIdeal.KernelValue

end
-- ==== Proof.Reference.lean ====
/-
  The reference, read as the same function of its arguments.

  The reference is host operations only.  Its `dot_general` of the features with the weights is, at the ideal instance,
  the sum over the 128 contraction positions of the products: `support x w`.  Its next sixteen operations are, one for
  one, the operations the kernel's program runs between its two pallas_calls, on that support: `aggregate`.  Its last
  three lay the bias out as a row, repeat the row over the 100000 rows and add: entry `(r, c)` gains `b c`.  So its
  result is `layer` of its arguments.
-/
import proofs.«173636_j4776003633738_2_alg».proof.Proof.Gen.ReferenceIdeal.Read
import proofs.«173636_j4776003633738_2_alg».proof.Proof.HostChain

noncomputable section

open scoped BigOperators

namespace Cert.ReferenceIdeal.RefValue

open Cert.ReferenceIdeal Cert.ReferenceIdeal.Gen Cert.ReferenceIdeal.Read Cert.GraphConv
open Idealize.ShloMosaic Idealize.ShloMosaic.TcCoe Idealize.SL.Sem

/-- The host's `dot_general` is the dense product, entry by entry: the contraction's two operand indices at output
    entry `i` and position `k` are (row of `i`, `k`) and (`k`, column of `i`). -/
theorem dot_eq_support (x0 : (⟨S100000x128, .f32⟩ : BufTy).Contents (Elt Ideal)) (x1 : (⟨S128x64, .f32⟩ : BufTy).Contents (Elt Ideal)) :
    val_main_v0 (F := Ideal) x0 x1 = support x0 x1 := by
  funext i
  refine (val_main_v0_apply x0 x1 i).trans ?_
  unfold support
  refine Finset.sum_congr rfl fun k _ => ?_
  have el : lidx_main_v0 i k = atRow i k := funext fun a => Fin.ext (by
    match a with
    | ⟨0, _⟩ => rfl
    | ⟨1, _⟩ => rfl)
  have er : ridx_main_v0 i k = atCol i k := funext fun a => Fin.ext (by
    match a with
    | ⟨0, _⟩ => rfl
    | ⟨1, _⟩ => rfl)
  exact congrArg₂ (· * ·) (congrArg x0 el) (congrArg x1 er)

set_option maxHeartbeats 400000 in
/-- The reference's aggregation is the kernel program's host chain applied to the reference's support: the same
    operations with the same dimension numbers and the same constants, operand for operand. -/
theorem agg_eq_aggregate (x0 : (⟨S100000x128, .f32⟩ : BufTy).Contents (Elt Ideal)) (x1 : (⟨S128x64, .f32⟩ : BufTy).Contents (Elt Ideal))
    (x3 x4 : (⟨S1600000, .i32⟩ : BufTy).Contents (Elt Ideal)) (x5 : (⟨S1600000, .f32⟩ : BufTy).Contents (Elt Ideal)) :
    val_main_v13 (F := Ideal) x0 x1 x3 x4 x5 = Cert.KernelIdeal.HostChain.aggregate (F := Ideal) (support x0 x1) x3 x4 x5 :=
  (show val_main_v13 (F := Ideal) x0 x1 x3 x4 x5 = Cert.KernelIdeal.HostChain.aggregate (F := Ideal) (val_main_v0 (F := Ideal) x0 x1) x3 x4 x5 from rfl).trans
    (congrArg (fun s => Cert.KernelIdeal.HostChain.aggregate (F := Ideal) s x3 x4 x5) (dot_eq_support x0 x1))

/-- The bias entry the reference's two broadcasts read at output entry `i`: the column of `i`. -/
theorem bias_index (i : S100000x64.Idx) : idx_main_v14 (idx_main_v15 i) = colOf i :=
  funext fun a => Fin.ext (by
    match a with
    | ⟨0, _⟩ => rfl)

/-- THE REFERENCE'S RESULT is the layer of its arguments. -/
theorem stage_eq (x0 : (⟨S100000x128, .f32⟩ : BufTy).Contents (Elt Ideal)) (x1 : (⟨S128x64, .f32⟩ : BufTy).Contents (Elt Ideal))
    (x2 : (⟨S64, .f32⟩ : BufTy).Contents (Elt Ideal)) (x3 x4 : (⟨S1600000, .i32⟩ : BufTy).Contents (Elt Ideal))
    (x5 : (⟨S1600000, .f32⟩ : BufTy).Contents (Elt Ideal)) :
    val_main_v16 (F := Ideal) x0 x1 x2 x3 x4 x5 = Cert.KernelIdeal.HostChain.layer x0 x1 x2 x3 x4 x5 := by
  funext i
  rw [val_main_v16_apply, val_main_v15_apply, val_main_v14_apply, agg_eq_aggregate, bias_index]
  rfl

end Cert.ReferenceIdeal.RefValue

end
-- ==== Proof.lean ====
/-
  A graph-convolution layer against its plain jnp reference, at the ideal instance.

  For node features `x`, weights `w`, a bias row `b` and edges `(src, dst, vals)` both programs compute
      out = withBias (aggregate (support x w) src dst vals) b :
  the dense product `support x w`, the sparse aggregation of its rows over the edges, and the bias row added to every
  row.  The kernel program computes the product in a first pallas_call (5000 rows per grid point; bf16 operands into an
  f32 zero accumulator, which at the ideal instance is the exact sum over the 128 contraction positions), runs the
  aggregation on the host, and adds the bias in a second pallas_call (10000 rows per grid point).  The reference does
  all three on the host, with the same aggregation operations.  The two results agree as extended reals, entry by
  entry, for ALL inputs: the one law used is that a finite sum of extended reals does not depend on how its terms are
  indexed, which holds at the infinities too, so the precondition is never opened.

  The frames of the two kernel programs are their generated frame certificates; the reference's is its generated run
  with the result dropped.  `preserves` is `True`: the ideal pass rewrote no operation.  `algebraic`: the kernel's run
  ends with its result at `layer` of its arguments (Proof/KernelValue.lean), the reference's run with its result at
  `layer` of its own (Proof/Reference.lean), and the arguments agree.
-/
import proofs.«173636_j4776003633738_2_alg».proof.Defs
import proofs.«173636_j4776003633738_2_alg».proof.Proof.Gen.Kernel
import proofs.«173636_j4776003633738_2_alg».proof.Proof.Gen.Kernel.Skeleton
import proofs.«173636_j4776003633738_2_alg».proof.Proof.Gen.Kernel.Launch
import proofs.«173636_j4776003633738_2_alg».proof.Proof.Gen.Kernel.Points
import proofs.«173636_j4776003633738_2_alg».proof.Proof.Gen.Kernel.Frame
import proofs.«173636_j4776003633738_2_alg».proof.Proof.Gen.KernelIdeal
import proofs.«173636_j4776003633738_2_alg».proof.Proof.Gen.KernelIdeal.Skeleton
import proofs.«173636_j4776003633738_2_alg».proof.Proof.Gen.KernelIdeal.Launch
import proofs.«173636_j4776003633738_2_alg».proof.Proof.Gen.KernelIdeal.Points
import proofs.«173636_j4776003633738_2_alg».proof.Proof.Gen.KernelIdeal.Frame
import proofs.«173636_j4776003633738_2_alg».proof.Proof.Gen.ReferenceIdeal
import proofs.«173636_j4776003633738_2_alg».proof.Proof.Gen.ReferenceIdeal.Run
import proofs.«173636_j4776003633738_2_alg».proof.Proof.Gen.ReferenceIdeal.Read
import proofs.«173636_j4776003633738_2_alg».proof.Proof.Gen.Pre_finite_inputs
import proofs.«173636_j4776003633738_2_alg».proof.Proof.KernelValue
import proofs.«173636_j4776003633738_2_alg».proof.Proof.Reference
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing, so there is nothing to restate. -/
theorem preserves : Cert.preserves_Kernel_KernelIdeal := trivial

/-- From memories agreeing on the arguments both runs end with the result at `layer` of the arguments: the kernel's by
    `KernelValue.run`; the reference's by its generated run, whose term is its last stage, which is `layer`. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.stage_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
